-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S200000 : Shape := ⟨1, ![200000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S200000 : S_.BroadcastsInDim S200000 (![] : Fin 0 → Fin S200000.rank)
  reducesTo_S200000_S_d0 : S200000.ReducesTo [0] S_

variable [Facts]

def fn_part1 {F : FTy → Type} [FloatOps F] (main_v13 : IVec S_ 1) (main_v16 : IVec S200000 1) : IVec S_ 1 :=
  let main_c_5 : IVec S_ 1 := constantI S_ 1 1#1
  let main_v17 : IVec S_ 1 := (fun x v => Host.reduce IntOp.andi x v reducesTo_S200000_S_d0 h_S_) main_v16 main_c_5
  let main_v18 : IVec S_ 1 := andi main_v13 main_v17
  main_v18

def fn {F : FTy → Type} [FloatOps F] (main_arg0 : FVec F S50000x512 .f32) (main_arg1 : FVec F S512x512 .f32) (main_arg2 : FVec F S512 .f32) (main_arg3 : FVec F S200000 .f32) (main_arg4 : IVec S200000 32) (main_arg5 : IVec S200000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S200000 .f32 := Host.absf main_arg3
  let main_cst_4 : FVec F S_ .f32 := constant S_ .f32 0x7F800000#32
  let main_v15 : FVec F S200000 .f32 := broadcastInDim S200000 ![] bcast_S_S200000 main_cst_4
  let main_v16 : IVec S200000 1 := cmpf .olt main_v14 main_v15
  fn_part1 (F := F) main_v13 main_v16
-- ==== Kernel.lean ====
abbrev S50000x512 : Shape := ⟨2, ![50000, 512]⟩
abbrev S512x512 : Shape := ⟨2, ![512, 512]⟩
abbrev S512 : Shape := ⟨1, ![512]⟩
abbrev S200000 : Shape := ⟨1, ![200000]⟩
abbrev S1x512 : Shape := ⟨2, ![1, 512]⟩
abbrev S2000x512 : Shape := ⟨2, ![2000, 512]⟩
abbrev S_ : Shape := ⟨0, ![]⟩
abbrev S200000x1 : Shape := ⟨2, ![200000, 1]⟩
abbrev S200000x512 : Shape := ⟨2, ![200000, 512]⟩
abbrev S50000 : Shape := ⟨1, ![50000]⟩
abbrev S50000x1 : Shape := ⟨2, ![50000, 1]⟩
abbrev S2000x1 : Shape := ⟨2, ![2000, 1]⟩

abbrev nBuf : Space → Nat
  | .hbm => 33
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S200000, .f32⟩
  | .hbm, ⟨4, _⟩ => ⟨S200000, .i32⟩
  | .hbm, ⟨5, _⟩ => ⟨S200000, .i32⟩
  | .hbm, ⟨6, _⟩ => ⟨S512x512, .bf16⟩
  | .hbm, ⟨7, _⟩ => ⟨S1x512, .f32⟩
  | .hbm, ⟨8, _⟩ => ⟨S50000x512, .f32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x512, .f32⟩
  | .hbm, ⟨18, _⟩ => ⟨S200000x1, .f32⟩
  | .hbm, ⟨19, _⟩ => ⟨S200000x512, .f32⟩
  | .hbm, ⟨20, _⟩ => ⟨S200000x512, .f32⟩
  | .hbm, ⟨21, _⟩ => ⟨S_, .f32⟩
  | .hbm, ⟨22, _⟩ => ⟨S50000x512, .f32⟩
  | .hbm, ⟨23, _⟩ => ⟨S200000x1, .i32⟩
  | .hbm, ⟨24, _⟩ => ⟨S50000x512, .f32⟩
  | .hbm, ⟨25, _⟩ => ⟨S_, .f32⟩
  | .hbm, ⟨26, _⟩ => ⟨S200000, .f32⟩
  | .hbm, ⟨27, _⟩ => ⟨S_, .f32⟩
  | .hbm, ⟨28, _⟩ => ⟨S50000, .f32⟩
  | .hbm, ⟨29, _⟩ => ⟨S200000x1, .i32⟩
  | .hbm, ⟨30, _⟩ => ⟨S50000, .f32⟩
  | .hbm, ⟨31, _⟩ => ⟨S50000x1, .f32⟩
  | .hbm, ⟨32, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x1, .f32⟩
  | .local _ .vmem, ⟨9, _⟩ => ⟨S2000x1, .f32⟩
  | .local _ .vmem, ⟨10, _⟩ => ⟨S2000x512, .f32⟩
  | .local _ .vmem, ⟨11, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  bcast_S_S50000x512 : S_.BroadcastsInDim S50000x512 (![] : Fin 0 → Fin S50000x512.rank)
  bcast_S_S50000 : S_.BroadcastsInDim S50000 (![] : Fin 0 → Fin S50000.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x512_S2000x512 : S2000x512.ShapeCasts S2000x512
  broadcasts_S2000x1_S2000x512 : S2000x1.Broadcasts S2000x512
  dot_S2000x512_S512x512_S2000x512_1_0_0_1_n_n_wf : DotDims.WF S2000x512 S512x512 S2000x512 [1] [0] [0] [1] [] []
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  scatter_S50000_S200000x1_S200000_n_0_0_1_wf : ScatterDims.WF S50000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S200000 : Shape := ⟨1, ![200000]⟩
abbrev S1x512 : Shape := ⟨2, ![1, 512]⟩
abbrev S_ : Shape := ⟨0, ![]⟩
abbrev S200000x1 : Shape := ⟨2, ![200000, 1]⟩
abbrev S200000x512 : Shape := ⟨2, ![200000, 512]⟩
abbrev S50000 : Shape := ⟨1, ![50000]⟩
abbrev S50000x1 : Shape := ⟨2, ![50000, 1]⟩

abbrev nBuf : Space → Nat
  | .hbm => 41
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S200000, .f32⟩
  | .hbm, ⟨4, _⟩ => ⟨S200000, .i32⟩
  | .hbm, ⟨5, _⟩ => ⟨S200000, .i32⟩
  | .hbm, ⟨6, _⟩ => ⟨S50000x512, .f32⟩
  | .hbm, ⟨7, _⟩ => ⟨S1x512, .f32⟩
  | .hbm, ⟨8, _⟩ => ⟨S50000x512, .f32⟩
  | .hbm, ⟨9, _⟩ => ⟨S50000x512, .f32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000x512, .f32⟩
  | .hbm, ⟨19, _⟩ => ⟨S200000x1, .f32⟩
  | .hbm, ⟨20, _⟩ => ⟨S200000x512, .f32⟩
  | .hbm, ⟨21, _⟩ => ⟨S200000x512, .f32⟩
  | .hbm, ⟨22, _⟩ => ⟨S_, .f32⟩
  | .hbm, ⟨23, _⟩ => ⟨S50000x512, .f32⟩
  | .hbm, ⟨24, _⟩ => ⟨S200000x1, .i32⟩
  | .hbm, ⟨25, _⟩ => ⟨S50000x512, .f32⟩
  | .hbm, ⟨26, _⟩ => ⟨S_, .f32⟩
  | .hbm, ⟨27, _⟩ => ⟨S200000, .f32⟩
  | .hbm, ⟨28, _⟩ => ⟨S_, .f32⟩
  | .hbm, ⟨29, _⟩ => ⟨S50000, .f32⟩
  | .hbm, ⟨30, _⟩ => ⟨S200000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x512, .f32⟩
  | .hbm, ⟨37, _⟩ => ⟨S50000x512, .f32⟩
  | .hbm, ⟨38, _⟩ => ⟨S_, .f32⟩
  | .hbm, ⟨39, _⟩ => ⟨S50000x512, .f32⟩
  | .hbm, ⟨40, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  dot_S50000x512_S512x512_S50000x512_1_0_0_1_n_n_wf : DotDims.WF S50000x512 S512x512 S50000x512 [1] [0] [0] [1] [] []
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  scatter_S50000_S200000x1_S200000_n_0_0_1_wf : ScatterDims.WF S50000 S200000x1 S200000 [] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf

class Facts : Prop extends Facts₀ where

variable [Facts]
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Spec.lean ====
/-
  The two dense pieces of a mean-aggregating graph layer, as functions on the extended reals.

  A node's features are first projected, `x · W + b`; messages along the edges are then summed per destination node and
  counted; last, each node's sum is divided by its count, or by one where no edge arrives, and rectified.  The first
  and the last step are stated here entry by entry: `proj` is the projection with the bias kept as a [1, N] row, and
  `meanRelu` is `max (s / max (cnt, 1), 0)` with the count a vector over the nodes.  The middle step (gather, scale,
  scatter-add) is the same host computation in both programs and is never opened.
-/
import Idealize.ShloMosaic.Lib.ValueIdx
import Idealize.ShloMosaic.PureOps.Ideal.Laws

noncomputable section

open scoped BigOperators

namespace Cert.MeanAgg

open Idealize.ShloMosaic Idealize.ShloMosaic.ValueIdx

/-- The f32 word of 0.0, on the extended reals. -/
abbrev zeroF : EReal := Ideal.ofBits .f32 0x00000000#32
/-- The f32 word of 1.0, on the extended reals. -/
abbrev oneF : EReal := Ideal.ofBits .f32 0x3F800000#32

variable {R K N : ℕ}

/-- Entry (r, g) of x · W + b: the sum over the contracted axis plus the bias row's entry in column g. -/
def proj (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => (∑ k : Fin K, A (ix2 (i 0) k) * W (ix2 k (i 1))) + b (ix2 (0 : Fin 1) (i 1))

/-- The same projection with the bias given as a vector over the output columns. -/
def projVec (A : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ k : Fin K, A (ix2 (i 0) k) * W (ix2 k (i 1))) + b (ix1 (i 1))

/-- A bias row that holds the bias vector entry by entry gives the same projection as the vector. -/
theorem proj_eq_projVec (A : (⟨2, ![R, K]⟩ : Shape).Idx → EReal) (W : (⟨2, ![K, N]⟩ : Shape).Idx → EReal)
    (row : (⟨2, ![1, N]⟩ : Shape).Idx → EReal) (b : (⟨1, ![N]⟩ : Shape).Idx → EReal)
    (h : ∀ g : Fin N, row (ix2 (0 : Fin 1) g) = b (ix1 g)) : proj A W row = projVec A W b := by
  funext i
  obtain ⟨r, g, rfl⟩ : ∃ (r : Fin R) (g : Fin N), i = ix2 r g := ⟨i 0, i 1, eq_ix2 i⟩
  show (∑ k : Fin K, A (ix2 r k) * W (ix2 k g)) + row (ix2 (0 : Fin 1) g) = (∑ k : Fin K, A (ix2 r k) * W (ix2 k g)) + b (ix1 g)
  rw [h]

/-- Entry (r, g) of the normalized and rectified aggregate: node r's summed messages divided by its in-degree, or by one
    when that is smaller, and then the maximum with zero. -/
def meanRelu (s : (⟨2, ![R, N]⟩ : Shape).Idx → EReal) (cnt : (⟨1, ![R]⟩ : Shape).Idx → EReal) :
    (⟨2, ![R, N]⟩ : Shape).Idx → EReal :=
  fun i => max (Ideal.div (s i) (max (cnt (ix1 (i 0))) oneF)) zeroF

/-- The same with the counts kept as a column [R, 1], as a kernel's block of them is. -/
def meanReluCol (s : (⟨2, ![R, N]⟩ : Shape).Idx → EReal) (col : (⟨2, ![R, 1]⟩ : Shape).Idx → EReal) :
    (⟨2, ![R, N]⟩ : Shape).Idx → EReal :=
  fun i => max (Ideal.div (s i) (max (col (ix2 (i 0) (0 : Fin 1))) oneF)) zeroF

/-- A column that holds the count vector entry by entry gives the same result as the vector. -/
theorem meanReluCol_eq (s : (⟨2, ![R, N]⟩ : Shape).Idx → EReal) (col : (⟨2, ![R, 1]⟩ : Shape).Idx → EReal)
    (cnt : (⟨1, ![R]⟩ : Shape).Idx → EReal) (h : ∀ r : Fin R, col (ix2 r (0 : Fin 1)) = cnt (ix1 r)) :
    meanReluCol s col = meanRelu s cnt := by
  funext i
  obtain ⟨r, g, rfl⟩ : ∃ (r : Fin R) (g : Fin N), i = ix2 r g := ⟨i 0, i 1, eq_ix2 i⟩
  show max (Ideal.div _ (max (col (ix2 r (0 : Fin 1))) oneF)) zeroF = max (Ideal.div _ (max (cnt (ix1 r)) oneF)) zeroF
  rw [h]

/-- Row r of the projection depends on row r of the features only. -/
theorem proj_apply (A : (⟨2, ![R, K]⟩ : Shape).Idx → EReal) (W : (⟨2, ![K, N]⟩ : Shape).Idx → EReal)
    (b : (⟨2, ![1, N]⟩ : Shape).Idx → EReal) (r : Fin R) (g : Fin N) :
    proj A W b (ix2 r g) = (∑ k : Fin K, A (ix2 r k) * W (ix2 k g)) + b (ix2 (0 : Fin 1) g) := rfl

theorem meanRelu_apply (s : (⟨2, ![R, N]⟩ : Shape).Idx → EReal) (cnt : (⟨1, ![R]⟩ : Shape).Idx → EReal) (r : Fin R) (g : Fin N) :
    meanRelu s cnt (ix2 r g) = max (Ideal.div (s (ix2 r g)) (max (cnt (ix1 r)) oneF)) zeroF := rfl

end Cert.MeanAgg

end
-- ==== Proof.BodyValues.lean ====
/-
  What each kernel body stores, read at an entry of its block, on the extended reals.

  The projection body multiplies its 2000 rows of features by the whole weight matrix into a zero accumulator and adds
  the bias row repeated down the rows; narrowing to bf16 is the identity here, so entry (r, g) of what it stores is
  Σₖ x (r, k) · W (k, g) + b (0, g).  The normalizing body divides its 2000 rows of sums by the column of counts, each
  count first raised to at least one, and takes the maximum with zero.
-/
import proofs.«166388_j56581899157981_1_alg».proof.Proof.Gen.KernelIdeal.Skeleton
import proofs.«166388_j56581899157981_1_alg».proof.Proof.LibPlainMatmul
import proofs.«166388_j56581899157981_1_alg».proof.Proof.LibBlockLayout
import proofs.«166388_j56581899157981_1_alg».proof.Proof.LibKeepdims
import proofs.«166388_j56581899157981_1_alg».proof.Proof.Spec
import Idealize.ShloMosaic.Lib.Pipeline.Value

noncomputable section

open scoped BigOperators

namespace Cert.MeanAgg

open Idealize.ShloMosaic Idealize.ShloMosaic.ValueIdx Cert.KernelIdeal Cert.KernelIdeal.Gen

/-- The body's matrix product is the plain one: rows of the left operand against columns of the right. -/
theorem dot_plain : dot_S2000x512_S512x512_S2000x512_1_0_0_1_n_n = DotDims.plain 2000 512 512 := rfl

/-- The projection body's stored value at (r, g). -/
theorem projBody_at (x0 : Vec Ideal S2000x512 .f32) (x1 : Vec Ideal S512x512 .bf16) (x2 : Vec Ideal S1x512 .f32)
    (r : Fin 2000) (g : Fin 512) :
    k0_pay1 (F := Ideal) x0 x1 x2 (ix2 r g) = (∑ k : Fin 512, x0 (ix2 r k) * x1 (ix2 k g)) + x2 (ix2 (0 : Fin 1) g) := by
  unfold k0_pay1
  refine (addf_apply _ _ _).trans ?_
  refine congrArg₂ (· + ·) ?_ ?_
  · rw [dot_plain]
    refine (Cert.LibPlainMatmul.matmul_zero_apply none _ _ r g).trans ?_
    refine Finset.sum_congr rfl fun k _ => ?_
    rw [shapeCast_self]
    rfl
  · refine (Cert.LibBlockLayout.rowBroadcast_at _ _ r g).trans ?_
    rw [shapeCast_self, shapeCast_self]

/-- The normalizing body's stored value at (r, g). -/
theorem meanBody_at (v0 : Vec Ideal S2000x1 .f32) (v4 : Vec Ideal S2000x512 .f32) (r : Fin 2000) (g : Fin 512) :
    k1_pay1 (F := Ideal) v0 v4 (ix2 r g) = max (Ideal.div (v4 (ix2 r g)) (max (v0 (ix2 r (0 : Fin 1))) oneF)) zeroF := by
  unfold k1_pay1
  refine (maximumf_apply _ _ _).trans ?_
  refine congrArg₂ max ?_ rfl
  refine (divf_apply _ _ _).trans ?_
  refine congrArg₂ Ideal.div ?_ ?_
  · rw [shapeCast_self]
  · refine (Cert.LibKeepdims.broadcastTo_a1_ab_apply _ _ r g).trans ?_
    refine (maximumf_apply _ _ _).trans ?_
    rw [shapeCast_self]
    rfl

end Cert.MeanAgg

end
-- ==== Proof.Arrays.lean ====
/-
  From blocks to whole arrays, for each of the two pipelined regions, at any contents the region is entered with.

  Both regions walk the 50000 rows in 25 blocks of 2000: at point t every row-blocked window holds rows 2000·t … 2000·t + 1999
  and the weight matrix and the bias row are held whole.  So what point t writes back is block t of ONE function of the
  region's input arrays — the projection `proj`, respectively the normalized rectified aggregate `meanReluCol` — and since
  the 25 blocks tile the rows, the output array ends holding that function everywhere.
-/
import proofs.«166388_j56581899157981_1_alg».proof.Proof.Gen.KernelIdeal.Frame
import proofs.«166388_j56581899157981_1_alg».proof.Proof.BodyValues
import Idealize.ShloMosaic.Lib.Pipeline.Value

noncomputable section

open scoped BigOperators

namespace Cert.MeanAgg

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The projection of the arrays region 0 is entered with. -/
abbrev projOf (c : Dev nD) : S50000x512.Idx → EReal :=
  proj (R := 50000) (K := 512) (N := 512) (V c main_arg0 : S50000x512.Idx → EReal) (V c main_v0 : S512x512.Idx → EReal)
    (V c main_v1 : S1x512.Idx → EReal)

/-- The normalized rectified aggregate of the arrays region 1 is entered with. -/
abbrev meanOf (c : Dev nD) : S50000x512.Idx → EReal :=
  meanReluCol (R := 50000) (N := 512) (V c main_v15 : S50000x512.Idx → EReal) (V c main_v20 : S50000x1.Idx → EReal)

/-! ## Region 0: the projection -/

/-- The block indices of region 0's windows at point t: the features and the result move down the rows with t, the
    weights and the bias row stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The projection body's stored value at an index of its block, by coordinates. -/
theorem projBody_idx (x0 : Vec Ideal S2000x512 .f32) (x1 : Vec Ideal S512x512 .bf16) (x2 : Vec Ideal S1x512 .f32)
    (j : S2000x512.Idx) :
    k0_pay1 (F := Ideal) x0 x1 x2 j
      = (∑ k : Fin 512, x0 (ix2 (n0 := 2000) (j 0) k) * x1 (ix2 k (n1 := 512) (j 1))) + x2 (ix2 (0 : Fin 1) (n1 := 512) (j 1)) := by
  obtain ⟨r, g, rfl⟩ : ∃ (r : Fin 2000) (g : Fin 512), j = ix2 r g := ⟨j 0, j 1, eq_ix2 j⟩
  exact projBody_at x0 x1 x2 r g

/-- What point t of region 0 writes back is block t of the projection. -/
theorem proj_flushed (c : Dev nD) (t : Fin cfg0.N) :
    (dat0 V c).flushed 3 t = ((cfg0.win 3).blk t).view.read (Elt Ideal) (projOf V c) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x512) hz, View.ld_unit_zero (S := S1x512) hz]
  obtain ⟨e0, e1, e2, e3, e4, e5, e6, e7⟩ := idx0 t
  funext j
  show k0_pay1 (F := Ideal) (iblk0 V c 0 t) (iblk0 V c 1 t) (iblk0 V c 2 t) j = projOf V c (((cfg0.win 3).blk t).view.emb j)
  refine (projBody_idx _ _ _ j).trans ?_
  have hj0 : (j 0).val < 2000 := (j 0).isLt
  have hj1 : (j 1).val < 512 := (j 1).isLt
  refine congrArg₂ (· + ·) (Finset.sum_congr rfl fun k _ => congrArg₂ (· * ·) ?_ ?_) ?_
  · show V c main_arg0 (((cfg0.win 0).blk t).view.emb (ix2 (n0 := 2000) (j 0) k)) = V c main_arg0 _
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 512 + 1 * k.val = k.val; omega
  · show V c main_v0 (((cfg0.win 1).blk t).view.emb (ix2 k (n1 := 512) (j 1))) = V c main_v0 _
    refine congrArg _ (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_3.index t (1 : Fin 2) * 512 + 1 * (j 1).val; omega
  · show V c main_v1 (((cfg0.win 2).blk t).view.emb (ix2 (0 : Fin 1) (n1 := 512) (j 1))) = V c main_v1 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An index of the projected array is in point t's block iff each coordinate is in the block's range on its axis. -/
theorem mem_blk0 (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v2).slice (win0_3.rect t)).set ↔ _
  rw [View.set_slice_whole, Rect.mem_set_unit]
  exact Iff.rfl

/-- After region 0 its result array holds the projection of the arrays it was entered with: row r lies in the block
    of point r / 2000. -/
theorem proj_array (c : Dev nD) : (dat0 V c).arrAt 3 cfg0.N = projOf V c :=
  (dat0 V c).arrAt_eq_of_cover 3 (projOf V c) (fun t _ => proj_flushed V c t) fun i => by
    have hi0 : (i 0).val < 50000 := (i 0).isLt
    have hi1 : (i 1).val < 512 := (i 1).isLt
    have hN : cfg0.N = 25 := N_0
    have ht : (i 0).val / 2000 < cfg0.N := by rw [hN]; omega
    obtain ⟨-, -, -, -, -, -, e6, e7⟩ := idx0 ⟨(i 0).val / 2000, ht⟩
    refine ⟨⟨(i 0).val / 2000, ht⟩, flush0_3 _, ?_⟩
    rw [mem_blk0]
    intro a
    match a with
    | ⟨0, _⟩ =>
      show win0_3.index ⟨(i 0).val / 2000, ht⟩ (0 : Fin 2) * 2000 ≤ (i 0).val ∧ (i 0).val < win0_3.index ⟨(i 0).val / 2000, ht⟩ (0 : Fin 2) * 2000 + 2000
      rw [e6]; show (i 0).val / 2000 * 2000 ≤ (i 0).val ∧ (i 0).val < (i 0).val / 2000 * 2000 + 2000; omega
    | ⟨1, _⟩ =>
      show win0_3.index ⟨(i 0).val / 2000, ht⟩ (1 : Fin 2) * 512 ≤ (i 1).val ∧ (i 1).val < win0_3.index ⟨(i 0).val / 2000, ht⟩ (1 : Fin 2) * 512 + 512
      rw [e7]; omega

/-! ## Region 1: the normalization -/

/-- The block indices of region 1's windows at point t: all three move down the rows with t. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The normalizing body's stored value at an index of its block, by coordinates. -/
theorem meanBody_idx (v0 : Vec Ideal S2000x1 .f32) (v4 : Vec Ideal S2000x512 .f32) (j : S2000x512.Idx) :
    k1_pay1 (F := Ideal) v0 v4 j = max (Ideal.div (v4 j) (max (v0 (ix2 (n0 := 2000) (j 0) (0 : Fin 1))) oneF)) zeroF := by
  obtain ⟨r, g, rfl⟩ : ∃ (r : Fin 2000) (g : Fin 512), j = ix2 r g := ⟨j 0, j 1, eq_ix2 j⟩
  exact meanBody_at v0 v4 r g

/-- What point t of region 1 writes back is block t of the normalized rectified aggregate. -/
theorem mean_flushed (c : Dev nD) (t : Fin cfg1.N) :
    (dat1 V c).flushed 2 t = ((cfg1.win 2).blk t).view.read (Elt Ideal) (meanOf V c) := by
  show (cfg1.win 2).cut (grid1.coords t) ((dat1 V c).after 2 t) = _
  rw [after1_2]
  unfold out1_2
  rw [View.canon_unit_zero hz]
  simp only [View.ld_unit_zero (S := S2000x512) hz, View.ld_unit_zero (S := S2000x1) hz]
  obtain ⟨e0, e1, e2, e3, e4, e5⟩ := idx1 t
  funext j
  show k1_pay1 (F := Ideal) (iblk1 V c 1 t) (iblk1 V c 0 t) j = meanOf V c (((cfg1.win 2).blk t).view.emb j)
  refine (meanBody_idx _ _ j).trans ?_
  have hj0 : (j 0).val < 2000 := (j 0).isLt
  have hj1 : (j 1).val < 512 := (j 1).isLt
  refine congrArg₂ max (congrArg₂ Ideal.div ?_ (congrArg₂ max ?_ rfl)) rfl
  · show V c main_v15 (((cfg1.win 0).blk t).view.emb j) = V c main_v15 _
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * (j 1).val = win1_2.index t (1 : Fin 2) * 512 + 1 * (j 1).val; omega
  · show V c main_v20 (((cfg1.win 1).blk t).view.emb (ix2 (n0 := 2000) (j 0) (0 : Fin 1))) = V c main_v20 _
    refine congrArg _ (funext fun a => Fin.ext ?_)
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 1 + 1 * 0 = 0; omega

/-- An index of the result array is in point t's block iff each coordinate is in the block's range on its axis. -/
theorem mem_blk1 (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v21).slice (win1_2.rect t)).set ↔ _
  rw [View.set_slice_whole, Rect.mem_set_unit]
  exact Iff.rfl

/-- After region 1 its result array holds the normalized rectified aggregate of the arrays it was entered with. -/
theorem mean_array (c : Dev nD) : (dat1 V c).arrAt 2 cfg1.N = meanOf V c :=
  (dat1 V c).arrAt_eq_of_cover 2 (meanOf V c) (fun t _ => mean_flushed V c t) fun i => by
    have hi0 : (i 0).val < 50000 := (i 0).isLt
    have hi1 : (i 1).val < 512 := (i 1).isLt
    have hN : cfg1.N = 25 := N_1
    have ht : (i 0).val / 2000 < cfg1.N := by rw [hN]; omega
    obtain ⟨-, -, -, -, e4, e5⟩ := idx1 ⟨(i 0).val / 2000, ht⟩
    refine ⟨⟨(i 0).val / 2000, ht⟩, flush1_2 _, ?_⟩
    rw [mem_blk1]
    intro a
    match a with
    | ⟨0, _⟩ =>
      show win1_2.index ⟨(i 0).val / 2000, ht⟩ (0 : Fin 2) * 2000 ≤ (i 0).val ∧ (i 0).val < win1_2.index ⟨(i 0).val / 2000, ht⟩ (0 : Fin 2) * 2000 + 2000
      rw [e4]; show (i 0).val / 2000 * 2000 ≤ (i 0).val ∧ (i 0).val < (i 0).val / 2000 * 2000 + 2000; omega
    | ⟨1, _⟩ =>
      show win1_2.index ⟨(i 0).val / 2000, ht⟩ (1 : Fin 2) * 512 ≤ (i 1).val ∧ (i 1).val < win1_2.index ⟨(i 0).val / 2000, ht⟩ (1 : Fin 2) * 512 + 512
      rw [e5]; omega

end Cert.MeanAgg

end
-- ==== Proof.Middle.lean ====
/-
  The edge step that both programs share, as two functions that are never opened.

  Between the projection and the normalization both programs run the same host operations: source indices below zero
  are wrapped once by the number of nodes, the projected rows are gathered at them, each gathered row is scaled by its
  edge's weight, and the scaled rows are added into a zero matrix at the destination indices (`edgeSums`); and a one per
  edge is added into a zero vector at the destination indices (`inDegree`).  The kernel's program and the reference
  print these operations over their own copies of the same dimension records, so each program's spelling is the shared
  function of its operands.
-/
import proofs.«166388_j56581899157981_1_alg».proof.Proof.Gen.KernelIdeal
import proofs.«166388_j56581899157981_1_alg».proof.Proof.Gen.ReferenceIdeal
import Idealize.ShloMosaic.PureOps.Ideal
import proofs.«166388_j56581899157981_1_alg».proof.Proof.Spec

noncomputable section

namespace Cert.MeanAgg

open Idealize.ShloMosaic

section Shared
open Cert.ReferenceIdeal Cert.ReferenceIdeal.Facts₀

/-- Messages summed per destination node, from the projected features, the edge weights and the two index arrays. -/
def edgeSums (hp : (⟨S50000x512, .f32⟩ : BufTy).Contents (Elt Ideal)) (ew : (⟨S200000, .f32⟩ : BufTy).Contents (Elt Ideal))
    (src dst : (⟨S200000, .i32⟩ : BufTy).Contents (Elt Ideal)) : (⟨S50000x512, .f32⟩ : BufTy).Contents (Elt Ideal) :=
  Host.scatterAdd scatter_S50000x512_S200000x1_S200000x512_1_0_0_1
    (broadcastInDim S50000x512 ![] bcast_S_S50000x512 (constant (F := Ideal) S_ .f32 0x00000000#32))
    (broadcastInDim S200000x1 ![0] bcast_S200000_S200000x1_0 dst)
    (mulf (Host.gather gather_S50000x512_S200000x1_S200000x512_1_0_n_n_0_1_1512 hp
        (broadcastInDim S200000x1 ![0] bcast_S200000_S200000x1_0
          (select (cmpi .slt src (broadcastInDim S200000 ![] bcast_S_S200000 (constantI S_ 32 0#32)))
            (addi src (broadcastInDim S200000 ![] bcast_S_S200000 (constantI S_ 32 50000#32))) src)))
      (broadcastInDim S200000x512 ![0, 1] bcast_S200000x1_S200000x512_0_1 (broadcastInDim S200000x1 ![0] bcast_S200000_S200000x1_0 ew)))

/-- The number of edges arriving at each node, as a float vector. -/
def inDegree (dst : (⟨S200000, .i32⟩ : BufTy).Contents (Elt Ideal)) : (⟨S50000, .f32⟩ : BufTy).Contents (Elt Ideal) :=
  Host.scatterAdd scatter_S50000_S200000x1_S200000_n_0_0_1
    (broadcastInDim S50000 ![] bcast_S_S50000 (constant (F := Ideal) S_ .f32 0x00000000#32))
    (broadcastInDim S200000x1 ![0] bcast_S200000_S200000x1_0 dst)
    (broadcastInDim S200000 ![] bcast_S_S200000 (constant (F := Ideal) S_ .f32 0x3F800000#32))

/-- The layer's result as one function of its six argument arrays: project, sum the weighted messages per destination,
    divide by the in-degree (at least one) and rectify. -/
def result (x0 : (⟨S50000x512, .f32⟩ : BufTy).Contents (Elt Ideal)) (x1 : (⟨S512x512, .f32⟩ : BufTy).Contents (Elt Ideal))
    (x2 : (⟨S512, .f32⟩ : BufTy).Contents (Elt Ideal)) (x3 : (⟨S200000, .f32⟩ : BufTy).Contents (Elt Ideal))
    (x4 x5 : (⟨S200000, .i32⟩ : BufTy).Contents (Elt Ideal)) : (⟨S50000x512, .f32⟩ : BufTy).Contents (Elt Ideal) :=
  meanRelu (R := 50000) (N := 512) (edgeSums (projVec (R := 50000) (K := 512) (N := 512) x0 x1 x2) x3 x4 x5) (inDegree x5)

end Shared

section Kernel
open Cert.KernelIdeal Cert.KernelIdeal.Facts₀

/-- The two programs' dimension records are the same records. -/
theorem scatter_rows_rec : scatter_S50000x512_S200000x1_S200000x512_1_0_0_1 = Cert.ReferenceIdeal.scatter_S50000x512_S200000x1_S200000x512_1_0_0_1 := rfl
theorem scatter_vec_rec : scatter_S50000_S200000x1_S200000_n_0_0_1 = Cert.ReferenceIdeal.scatter_S50000_S200000x1_S200000_n_0_0_1 := rfl
theorem gather_rec : gather_S50000x512_S200000x1_S200000x512_1_0_n_n_0_1_1512 = Cert.ReferenceIdeal.gather_S50000x512_S200000x1_S200000x512_1_0_n_n_0_1_1512 := rfl

/-- The kernel program's spelling of the summed messages is the shared function. -/
theorem edgeSums_kernel (hp : (⟨S50000x512, .f32⟩ : BufTy).Contents (Elt Ideal)) (ew : (⟨S200000, .f32⟩ : BufTy).Contents (Elt Ideal))
    (src dst : (⟨S200000, .i32⟩ : BufTy).Contents (Elt Ideal)) :
    Host.scatterAdd scatter_S50000x512_S200000x1_S200000x512_1_0_0_1
      (broadcastInDim S50000x512 ![] bcast_S_S50000x512 (constant (F := Ideal) S_ .f32 0x00000000#32))
      (broadcastInDim S200000x1 ![0] bcast_S200000_S200000x1_0 dst)
      (mulf (Host.gather gather_S50000x512_S200000x1_S200000x512_1_0_n_n_0_1_1512 hp
          (broadcastInDim S200000x1 ![0] bcast_S200000_S200000x1_0
            (select (cmpi .slt src (broadcastInDim S200000 ![] bcast_S_S200000 (constantI S_ 32 0#32)))
              (addi src (broadcastInDim S200000 ![] bcast_S_S200000 (constantI S_ 32 50000#32))) src)))
        (broadcastInDim S200000x512 ![0, 1] bcast_S200000x1_S200000x512_0_1 (broadcastInDim S200000x1 ![0] bcast_S200000_S200000x1_0 ew)))
      = edgeSums hp ew src dst := by
  rw [scatter_rows_rec, gather_rec]
  rfl

/-- The kernel program's spelling of the in-degrees is the shared function. -/
theorem inDegree_kernel (dst : (⟨S200000, .i32⟩ : BufTy).Contents (Elt Ideal)) :
    Host.scatterAdd scatter_S50000_S200000x1_S200000_n_0_0_1
      (broadcastInDim S50000 ![] bcast_S_S50000 (constant (F := Ideal) S_ .f32 0x00000000#32))
      (broadcastInDim S200000x1 ![0] bcast_S200000_S200000x1_0 dst)
      (broadcastInDim S200000 ![] bcast_S_S200000 (constant (F := Ideal) S_ .f32 0x3F800000#32))
      = inDegree dst := by
  rw [scatter_vec_rec]
  rfl

end Kernel

end Cert.MeanAgg

end
-- ==== Proof.Stages.lean ====
/-
  The kernel program's buffers at the four boundaries of its run, read back to the argument arrays.

  Region 0 is entered with the features as launched, the weights narrowed to bf16 (the identity on the extended
  reals) and the bias vector reshaped to a [1, 512] row; it leaves the projection in its result array.  The host
  operations between the regions compute the summed messages from that array and the in-degrees, reshaped to a column;
  region 1 is entered with those two and leaves the normalized rectified aggregate.  Read back through the four steps,
  the program's result array is `meanRelu (edgeSums (projVec h W b) w src dst) (inDegree dst)` of its arguments.
-/
import proofs.«166388_j56581899157981_1_alg».proof.Proof.Gen.KernelIdeal.Frame
import proofs.«166388_j56581899157981_1_alg».proof.Proof.Arrays
import proofs.«166388_j56581899157981_1_alg».proof.Proof.Middle
import Idealize.ShloMosaic.Lib.StableHlo.Run

noncomputable section

namespace Cert.MeanAgg

open Idealize.ShloMosaic Idealize.ShloMosaic.TcCoe Idealize.SL.Sem Idealize.ShloMosaic.ValueIdx
open Cert.KernelIdeal Cert.KernelIdeal.Gen
open Idealize.ShloMosaic.StableHlo

variable (m : (ℓ : Loc nD τ sig) → Buf (Elt Ideal) ℓ) (ρ : Dev nD → PrngReg)

/-! ## Region 0's entry -/

theorem entry0_x (c : Dev nD) : V1 m ρ c main_arg0 = m ((c : Thread nD τ).loc main_arg0) := by
  show StableHlo.after hostOps0 (W0 m ρ c) (Proc.devRef .tc main_arg0) = _
  after_results

/-- The weights region 0 reads are the launched ones: narrowing to bf16 is the identity on the extended reals. -/
theorem entry0_w (c : Dev nD) : (V1 m ρ c main_v0 : S512x512.Idx → EReal) = (m ((c : Thread nD τ).loc main_arg1) : S512x512.Idx → EReal) := by
  show StableHlo.after hostOps0 (W0 m ρ c) (Proc.devRef .tc main_v0) = _
  after_results
  rfl

theorem entry0_b (c : Dev nD) : (V1 m ρ c main_v1 : S1x512.Idx → EReal)
    = shapeCast S1x512 (m ((c : Thread nD τ).loc main_arg2) : S512.Idx → EReal) Gen.shapeCasts_S512_S1x512 := by
  show StableHlo.after hostOps0 (W0 m ρ c) (Proc.devRef .tc main_v1) = _
  after_results
  rfl

/-- The bias row region 0 reads holds the bias vector entry by entry. -/
theorem bias_row (b : S512.Idx → EReal) (g : Fin 512) :
    shapeCast S1x512 b Gen.shapeCasts_S512_S1x512 (ix2 (0 : Fin 1) g) = b (ix1 g) := by
  refine shapeCast_apply b Gen.shapeCasts_S512_S1x512 (ix2 (0 : Fin 1) g) (ix1 g) ?_
  rw [Shape.rowMajor_val_one, Shape.rowMajor_val_two]
  show g.val = 0 * 512 + g.val
  omega

/-- What region 0 computes from its entry contents is the projection of the launched arguments. -/
theorem proj_entry (c : Dev nD) : projOf (V1 m ρ) c
    = projVec (R := 50000) (K := 512) (N := 512) (m ((c : Thread nD τ).loc main_arg0)) (m ((c : Thread nD τ).loc main_arg1)) (m ((c : Thread nD τ).loc main_arg2)) := by
  unfold projOf
  rw [entry0_x, entry0_w, entry0_b]
  exact proj_eq_projVec _ _ _ _ (bias_row _)

/-! ## Region 0's exit -/

theorem exit0_proj (c : Dev nD) : W2 m ρ c (Proc.devRef .tc main_v2) = projOf (V1 m ρ) c :=
  (W2_arr m ρ c 3).trans (proj_array (V1 m ρ) c)

theorem exit0_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results
theorem exit0_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results
theorem exit0_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-! ## Region 1's entry -/

theorem entry1_sums (c : Dev nD) : V3 m ρ c main_v15
    = edgeSums (W2 m ρ c (Proc.devRef .tc main_v2)) (W2 m ρ c (Proc.devRef .tc main_arg3)) (W2 m ρ c (Proc.devRef .tc main_arg4)) (W2 m ρ c (Proc.devRef .tc main_arg5)) := by
  rw [← edgeSums_kernel]
  show StableHlo.after hostOps1 (W2 m ρ c) (Proc.devRef .tc main_v15) = _
  after_results

theorem entry1_cnt (c : Dev nD) : (V3 m ρ c main_v20 : S50000x1.Idx → EReal)
    = shapeCast S50000x1 (inDegree (W2 m ρ c (Proc.devRef .tc main_arg5)) : S50000.Idx → EReal) Gen.shapeCasts_S50000_S50000x1 := by
  rw [← inDegree_kernel]
  show StableHlo.after hostOps1 (W2 m ρ c) (Proc.devRef .tc main_v20) = _
  after_results
  rfl

/-- The column of counts region 1 reads holds the in-degree vector entry by entry. -/
theorem cnt_col (v : S50000.Idx → EReal) (r : Fin 50000) :
    shapeCast S50000x1 v Gen.shapeCasts_S50000_S50000x1 (ix2 r (0 : Fin 1)) = v (ix1 r) :=
  Cert.LibKeepdims.shapeCast_a_a1_apply v Gen.shapeCasts_S50000_S50000x1 r 0

/-! ## The result array -/

/-- After region 1 the program's result array holds `result` of the launched arguments. -/
theorem final_value (c : Dev nD) : W4 m ρ c (Proc.devRef .tc main_v21)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 2).trans ?_
  refine (mean_array (V3 m ρ) c).trans ?_
  unfold meanOf
  rw [entry1_sums, entry1_cnt, exit0_proj, exit0_arg3, exit0_arg4, exit0_arg5, proj_entry]
  exact meanReluCol_eq _ _ _ (cnt_col _)

end Cert.MeanAgg

end
-- ==== Proof.KernelRun.lean ====
/-
  The kernel program's run, read: it terminates with its result array at `result` of the launched arguments and the
  arguments unchanged.

  The program is two pipelined regions among two stretches of host operations.  Its run leaves every unscoped buffer
  at the contents the last boundary names; the result array's contents there are `result` of the arguments
  (Stages), and each argument's are its launched ones.
-/
import proofs.«166388_j56581899157981_1_alg».proof.Proof.Gen.KernelIdeal.Frame
import proofs.«166388_j56581899157981_1_alg».proof.Proof.Stages

set_option maxRecDepth 16384

noncomputable section

namespace Cert.MeanAgg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates, and every unscoped buffer then holds what the last segment
    boundary names for it. -/
theorem run_ends : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run, read: the result array at `result` of the launched arguments, every argument as launched. -/
theorem run : θ_run defs (onTc (τ := τ) (main (F := Ideal))) ⟨m, fun _ => 0, ρ⟩ (fun r => ∀ c : Dev nD,
      r.2.mem ((c.tc : Thread nD τ).loc main_v21)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v21 (by decide))).trans (final_value m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)
    (run_ends m ρ)

end Cert.MeanAgg

end
-- ==== Proof.RefValue.lean ====
/-
  The reference program's result, read one operation at a time, is the same function of the arguments.

  Its first four operations are the projection with the bias vector repeated down the rows; the next stretch is the
  shared edge step applied to that; the last operations raise the in-degree vector to at least one, repeat it along the
  columns, divide the summed messages by it and take the maximum with zero.  Entry (r, g) therefore reads
  max (edgeSums (…) (r, g) / max (inDegree r, 1), 0).
-/
import proofs.«166388_j56581899157981_1_alg».proof.Proof.Gen.ReferenceIdeal.Read
import proofs.«166388_j56581899157981_1_alg».proof.Proof.Middle
import Idealize.ShloMosaic.Lib.ValueIdx

noncomputable section

open scoped BigOperators

namespace Cert.MeanAgg

open Idealize.ShloMosaic Idealize.ShloMosaic.ValueIdx
open Cert.ReferenceIdeal Cert.ReferenceIdeal.Read

/-- The reference's projection stage is `projVec` of its first three arguments. -/
theorem ref_proj (x0 : (⟨S50000x512, .f32⟩ : BufTy).Contents (Elt Ideal)) (x1 : (⟨S512x512, .f32⟩ : BufTy).Contents (Elt Ideal))
    (x2 : (⟨S512, .f32⟩ : BufTy).Contents (Elt Ideal)) :
    val_main_v3 (F := Ideal) x0 x1 x2 = projVec (R := 50000) (K := 512) (N := 512) x0 x1 x2 := by
  funext i
  obtain ⟨r, g, rfl⟩ : ∃ (r : Fin 50000) (g : Fin 512), i = ix2 r g := ⟨i 0, i 1, eq_ix2 i⟩
  rw [val_main_v3_apply, val_main_v0_apply, val_main_v2_apply, val_main_v1_apply]
  have el : ∀ k : Fin 512, lidx_main_v0 (ix2 r g) k = ix2 r k := fun k => funext fun a => Fin.ext (by
    match a with
    | ⟨0, _⟩ => rfl
    | ⟨1, _⟩ => rfl)
  have er : ∀ k : Fin 512, ridx_main_v0 (ix2 r g) k = ix2 k g := fun k => funext fun a => Fin.ext (by
    match a with
    | ⟨0, _⟩ => rfl
    | ⟨1, _⟩ => rfl)
  have eb : idx_main_v1 (idx_main_v2 (ix2 r g)) = ix1 g := funext fun a => Fin.ext (by
    match a with
    | ⟨0, _⟩ => rfl)
  show (∑ k : Fin 512, x0 (lidx_main_v0 (ix2 r g) k) * x1 (ridx_main_v0 (ix2 r g) k)) + x2 (idx_main_v1 (idx_main_v2 (ix2 r g)))
    = (∑ k : Fin 512, x0 (ix2 r k) * x1 (ix2 k g)) + x2 (ix1 g)
  rw [eb]
  refine congrArg₂ (· + ·) (Finset.sum_congr rfl fun k _ => ?_) rfl
  rw [el, er]

/-- The reference's summed messages are the shared edge step applied to its projection. -/
theorem ref_sums (x0 : (⟨S50000x512, .f32⟩ : BufTy).Contents (Elt Ideal)) (x1 : (⟨S512x512, .f32⟩ : BufTy).Contents (Elt Ideal))
    (x2 : (⟨S512, .f32⟩ : BufTy).Contents (Elt Ideal)) (x3 : (⟨S200000, .f32⟩ : BufTy).Contents (Elt Ideal))
    (x4 x5 : (⟨S200000, .i32⟩ : BufTy).Contents (Elt Ideal)) :
    val_main_v16 (F := Ideal) x0 x1 x2 x3 x4 x5 = edgeSums (val_main_v3 (F := Ideal) x0 x1 x2) x3 x4 x5 := rfl

/-- The reference's in-degrees are the shared ones. -/
theorem ref_cnt (x5 : (⟨S200000, .i32⟩ : BufTy).Contents (Elt Ideal)) : val_main_v20 (F := Ideal) x5 = inDegree x5 := rfl

/-- The reference's result is `result` of its arguments. -/
theorem ref_value (x0 : (⟨S50000x512, .f32⟩ : BufTy).Contents (Elt Ideal)) (x1 : (⟨S512x512, .f32⟩ : BufTy).Contents (Elt Ideal))
    (x2 : (⟨S512, .f32⟩ : BufTy).Contents (Elt Ideal)) (x3 : (⟨S200000, .f32⟩ : BufTy).Contents (Elt Ideal))
    (x4 x5 : (⟨S200000, .i32⟩ : BufTy).Contents (Elt Ideal)) :
    val_main_v26 (F := Ideal) x0 x1 x2 x3 x4 x5 = result x0 x1 x2 x3 x4 x5 := by
  funext i
  obtain ⟨r, g, rfl⟩ : ∃ (r : Fin 50000) (g : Fin 512), i = ix2 r g := ⟨i 0, i 1, eq_ix2 i⟩
  rw [val_main_v26_apply, val_main_v25_apply, val_main_v24_apply, val_main_v23_apply, val_main_v22_apply, val_main_v21_apply,
    val_main_cst_3_apply, val_main_call0_v0_apply, val_main_call0_cst_apply, ref_sums, ref_cnt, ref_proj]
  have ei : idx_main_v23 (idx_main_v24 (ix2 r g)) = ix1 r := funext fun a => Fin.ext (by
    match a with
    | ⟨0, _⟩ => rfl)
  rw [ei]
  rfl

end Cert.MeanAgg

end
-- ==== Proof.lean ====
/-
  A mean-aggregating graph layer: a blocked projection kernel, the host's gather / scatter-add over the edges, and a
  blocked normalize-and-rectify kernel, against the same layer written with whole-array operations.

  On the extended reals both programs compute, at node r and output column g,

      max ( S (r, g) / max (deg r, 1), 0 ),    S = Σ over edges e with dst e = r of  w e · P (src e, g),
      P (n, g) = Σₖ h (n, k) · W (k, g) + b g,     deg r = the number of edges with dst e = r.

  The kernel's program computes P in 25 row blocks of 2000 with the weights narrowed to bf16 (the identity here) and the
  bias as a [1, 512] row; the reference computes it with one dot_general.  The edge step (S and deg) is the same host
  computation in both and is carried as two unopened functions.  The kernel's program then normalizes in 25 row blocks
  with the degrees as a [50000, 1] column; the reference does it with whole-array operations.  No law beyond reading
  each operation at an entry is needed, so the finiteness of the inputs is never used.

  Modules: Spec (the entrywise functions), BodyValues (what each kernel body stores, at an entry), Arrays (blocks to
  whole arrays, per region), Middle (the shared edge step and the result as one function), Stages (the kernel program's
  buffers at each boundary), KernelRun (its run, read), RefValue (the reference's result, read).
-/
import proofs.«166388_j56581899157981_1_alg».proof.Defs
import proofs.«166388_j56581899157981_1_alg».proof.Proof.Gen.Kernel
import proofs.«166388_j56581899157981_1_alg».proof.Proof.Gen.Kernel.Frame
import proofs.«166388_j56581899157981_1_alg».proof.Proof.Gen.KernelIdeal
import proofs.«166388_j56581899157981_1_alg».proof.Proof.Gen.KernelIdeal.Frame
import proofs.«166388_j56581899157981_1_alg».proof.Proof.Gen.ReferenceIdeal
import proofs.«166388_j56581899157981_1_alg».proof.Proof.Gen.ReferenceIdeal.Run
import proofs.«166388_j56581899157981_1_alg».proof.Proof.Gen.ReferenceIdeal.Read
import proofs.«166388_j56581899157981_1_alg».proof.Proof.Gen.Pre_finite_inputs
import proofs.«166388_j56581899157981_1_alg».proof.Proof.KernelRun
import proofs.«166388_j56581899157981_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with their result arrays at the same function
    of the arguments. -/
theorem algebraic : Cert.algebraic_KernelIdeal_ReferenceIdeal := by
  intro m ρ m' ρ' _ hagree
  refine ⟨fun c => Cert.MeanAgg.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.MeanAgg.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.MeanAgg.ref_value,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
